-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x3 : Shape := ⟨2, ![12288, 3]⟩
abbrev S_ : Shape := ⟨0, ![]⟩

class Facts : Prop where
  bcast_S_S12288x3 : S_.BroadcastsInDim S12288x3 (![] : Fin 0 → Fin S12288x3.rank)
  reducesTo_S12288x3_S_d0_1 : S12288x3.ReducesTo [0, 1] S_
  h_S_ : 0 < S_.numel

variable [Facts]

def fn {F : FTy → Type} [FloatOps F] (main_arg0 : FVec F S12288x3 .f32) (main_arg1 : FVec F S12288x3 .f32) : IVec S_ 1 :=
  let main_v0 : FVec F S12288x3 .f32 := Host.absf main_arg0
  let main_cst : FVec F S_ .f32 := constant S_ .f32 0x7F800000#32
  let main_v1 : FVec F S12288x3 .f32 := broadcastInDim S12288x3 ![] bcast_S_S12288x3 main_cst
  let main_v2 : IVec S12288x3 1 := cmpf .olt main_v0 main_v1
  let main_c : IVec S_ 1 := constantI S_ 1 1#1
  let main_v3 : IVec S_ 1 := (fun x v => Host.reduce IntOp.andi x v reducesTo_S12288x3_S_d0_1 h_S_) main_v2 main_c
  let main_v4 : FVec F S12288x3 .f32 := Host.absf main_arg1
  let main_cst_0 : FVec F S_ .f32 := constant S_ .f32 0x7F800000#32
  let main_v5 : FVec F S12288x3 .f32 := broadcastInDim S12288x3 ![] bcast_S_S12288x3 main_cst_0
  let main_v6 : IVec S12288x3 1 := cmpf .olt main_v4 main_v5
  let main_c_1 : IVec S_ 1 := constantI S_ 1 1#1
  let main_v7 : IVec S_ 1 := (fun x v => Host.reduce IntOp.andi x v reducesTo_S12288x3_S_d0_1 h_S_) main_v6 main_c_1
  let main_v8 : IVec S_ 1 := andi main_v3 main_v7
  main_v8
-- ==== Kernel.lean ====
abbrev S12288x3 : Shape := ⟨2, ![12288, 3]⟩
abbrev S3x12288 : Shape := ⟨2, ![3, 12288]⟩
abbrev S1x12288 : Shape := ⟨2, ![1, 12288]⟩
abbrev S12x1x12288 : Shape := ⟨3, ![12, 1, 12288]⟩
abbrev S3x1024 : Shape := ⟨2, ![3, 1024]⟩
abbrev S2048x3 : Shape := ⟨2, ![2048, 3]⟩
abbrev S1x1024 : Shape := ⟨2, ![1, 1024]⟩
abbrev S1x1x2048 : Shape := ⟨3, ![1, 1, 2048]⟩
abbrev S2048x1024 : Shape := ⟨2, ![2048, 1024]⟩
abbrev S2048x1 : Shape := ⟨2, ![2048, 1]⟩
abbrev S1024 : Shape := ⟨1, ![1024]⟩
abbrev S2048 : Shape := ⟨1, ![2048]⟩
abbrev S1x2048 : Shape := ⟨2, ![1, 2048]⟩
abbrev S12288 : Shape := ⟨1, ![12288]⟩
abbrev S12x12288 : Shape := ⟨2, ![12, 12288]⟩
abbrev S_ : Shape := ⟨0, ![]⟩

abbrev nBuf : Space → Nat
  | .hbm => 19
  | .vmem => 9
  | .smem => 0
  | _ => 0

abbrev bufTy : (tb : Table) → Fin (tcTables nBuf tb) → BufTy
  | .hbm, ⟨0, _⟩ => ⟨S12288x3, .f32⟩
  | .hbm, ⟨1, _⟩ => ⟨S12288x3, .f32⟩
  | .hbm, ⟨2, _⟩ => ⟨S3x12288, .f32⟩
  | .hbm, ⟨3, _⟩ => ⟨S1x12288, .f32⟩
  | .hbm, ⟨4, _⟩ => ⟨S12x1x12288, .f32⟩
  | .hbm, ⟨5, _⟩ => ⟨S12288, .f32⟩
  | .hbm, ⟨6, _⟩ => ⟨S12x12288, .f32⟩
  | .hbm, ⟨7, _⟩ => ⟨S_, .f32⟩
  | .hbm, ⟨8, _⟩ => ⟨S12288, .f32⟩
  | .hbm, ⟨9, _⟩ => ⟨S12288, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S3x1024, .f32⟩
  | .local _ .vmem, ⟨1, _⟩ => ⟨S3x1024, .f32⟩
  | .local _ .vmem, ⟨2, _⟩ => ⟨S2048x3, .f32⟩
  | .local _ .vmem, ⟨3, _⟩ => ⟨S2048x3, .f32⟩
  | .local _ .vmem, ⟨4, _⟩ => ⟨S1x1024, .f32⟩
  | .local _ .vmem, ⟨5, _⟩ => ⟨S1x1024, .f32⟩
  | .local _ .vmem, ⟨6, _⟩ => ⟨S1x1x2048, .f32⟩
  | .local _ .vmem, ⟨7, _⟩ => ⟨S1x1x2048, .f32⟩
  | .local _ .vmem, ⟨8, _⟩ => ⟨S1x1024, .f32⟩
  | _, _ => ⟨S12288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 6], ![false, false]⟩

def k0_cond2 (i : grid0.Coords) : BitVec 1 :=
  let arg1 : BitVec 32 := BitVec.ofNat 32 (i 1).val
  let c5_i32 : BitVec 32 := 5#32
  let v40 : BitVec 1 := Scalar.cmpi .eq arg1 c5_i32
  let v41 : BitVec 32 := Scalar.extui v40
  let c0_i32_13 : BitVec 32 := 0#32
  let v42 : BitVec 1 := Scalar.cmpi .ne v41 c0_i32_13
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S12288x3_S3x12288_1_0 : S12288x3.Transposes [1, 0] S3x12288
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S2048x3_S2048x3_0_0 : ∀ a, (![0, 0] : Fin 2 → Nat) a + S2048x3.size a ≤ S2048x3.size a
  h_S2048x3 : 0 < S2048x3.numel
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S1024 : S2048x1024.Reduces [0] S1024
  shapeCasts_S1024_S1x1024 : S1024.ShapeCasts S1x1024
  reduces_S2048x1024_S2048 : S2048x1024.Reduces [1] S2048
  shapeCasts_S2048_S2048x1 : S2048.ShapeCasts S2048x1
  transposes_S2048x1_p1_0_S1x2048 : S2048x1.Transposes [1, 0] S1x2048
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x12288_S12288 : S1x12288.ShapeCasts S12288
  shapeCasts_S12x1x12288_S12x12288 : S12x1x12288.ShapeCasts S12x12288
  reducesTo_S12x12288_S12288_d0 : S12x12288.ReducesTo [0] S12288
  h_S_ : 0 < S_.numel
  reducesTo_S12288_S_d0 : S12288.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1024.size a ≤ S3x12288.size a
  hwx0_0 : ∀ i : grid0.Coords, EltTy.bits .f32 = 32 ∨ (Rect.block (s := S3x12288) S3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S12288x3.size a
  hwx0_1 : ∀ i : grid0.Coords, EltTy.bits .f32 = 32 ∨ (Rect.block (s := S12288x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x12288.size a
  hwx0_2 : ∀ i : grid0.Coords, EltTy.bits .f32 = 32 ∨ (Rect.block (s := S1x12288) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S12x1x12288.size a
  hwx0_3 : ∀ i : grid0.Coords, EltTy.bits .f32 = 32 ∨ (Rect.block (s := S12x1x12288) S1x1x2048.size (cc0_transform_3 i) (hinb0_3 i)).WholeWords (EltTy.packing .f32)

variable [Facts₀]

abbrev win0_0 : Pipeline.Window sig grid0 :=
  Pipeline.Window.ofSpec (Memref.whole main_v0) S3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S12288x3 : Shape := ⟨2, ![12288, 3]⟩
abbrev S_ : Shape := ⟨0, ![]⟩
abbrev S12288 : Shape := ⟨1, ![12288]⟩
abbrev S12288x1 : Shape := ⟨2, ![12288, 1]⟩
abbrev S1x12288 : Shape := ⟨2, ![1, 12288]⟩
abbrev S12288x12288 : Shape := ⟨2, ![12288, 12288]⟩
abbrev S3x12288 : Shape := ⟨2, ![3, 12288]⟩

abbrev nBuf : Space → Nat
  | .hbm => 36
  | .vmem => 0
  | .smem => 0
  | _ => 0

abbrev bufTy : (tb : Table) → Fin (tcTables nBuf tb) → BufTy
  | .hbm, ⟨0, _⟩ => ⟨S12288x3, .f32⟩
  | .hbm, ⟨1, _⟩ => ⟨S12288x3, .f32⟩
  | .hbm, ⟨2, _⟩ => ⟨S12288x3, .f32⟩
  | .hbm, ⟨3, _⟩ => ⟨S_, .f32⟩
  | .hbm, ⟨4, _⟩ => ⟨S12288, .f32⟩
  | .hbm, ⟨5, _⟩ => ⟨S12288x1, .f32⟩
  | .hbm, ⟨6, _⟩ => ⟨S12288x3, .f32⟩
  | .hbm, ⟨7, _⟩ => ⟨S_, .f32⟩
  | .hbm, ⟨8, _⟩ => ⟨S12288, .f32⟩
  | .hbm, ⟨9, _⟩ => ⟨S1x12288, .f32⟩
  | .hbm, ⟨10, _⟩ => ⟨S12288x12288, .f32⟩
  | .hbm, ⟨11, _⟩ => ⟨S12288x12288, .f32⟩
  | .hbm, ⟨12, _⟩ => ⟨S12288x12288, .f32⟩
  | .hbm, ⟨13, _⟩ => ⟨S3x12288, .f32⟩
  | .hbm, ⟨14, _⟩ => ⟨S12288x12288, .f32⟩
  | .hbm, ⟨15, _⟩ => ⟨S_, .f32⟩
  | .hbm, ⟨16, _⟩ => ⟨S12288x12288, .f32⟩
  | .hbm, ⟨17, _⟩ => ⟨S12288x12288, .f32⟩
  | .hbm, ⟨18, _⟩ => ⟨S12288x12288, .f32⟩
  | .hbm, ⟨19, _⟩ => ⟨S_, .f32⟩
  | .hbm, ⟨20, _⟩ => ⟨S12288x12288, .f32⟩
  | .hbm, ⟨21, _⟩ => ⟨S12288x12288, .f32⟩
  | .hbm, ⟨22, _⟩ => ⟨S12288x12288, .f32⟩
  | .hbm, ⟨23, _⟩ => ⟨S_, .f32⟩
  | .hbm, ⟨24, _⟩ => ⟨S12288, .f32⟩
  | .hbm, ⟨25, _⟩ => ⟨S_, .f32⟩
  | .hbm, ⟨26, _⟩ => ⟨S12288, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S12288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S12288x3_S12288_d1 : S12288x3.ReducesTo [1] S12288
  h_S_ : 0 < S_.numel
  bcast_S12288_S12288x1_0 : S12288.BroadcastsInDim S12288x1 (![0] : Fin 1 → Fin S12288x1.rank)
  bcast_S12288_S1x12288_1 : S12288.BroadcastsInDim S1x12288 (![1] : Fin 1 → Fin S1x12288.rank)
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  transposes_S12288x3_S3x12288_1_0 : S12288x3.Transposes [1, 0] S3x12288
  bcast_S_S12288x12288 : S_.BroadcastsInDim S12288x12288 (![] : Fin 0 → Fin S12288x12288.rank)
  reducesTo_S12288x12288_S12288_d1 : S12288x12288.ReducesTo [1] S12288
  reducesTo_S12288x12288_S12288_d0 : S12288x12288.ReducesTo [0] S12288
  reducesTo_S12288_S_d0 : S12288.ReducesTo [0] S_
  dot_S12288x3_S3x12288_S12288x12288_1_0_0_1_n_n_wf : DotDims.WF S12288x3 S3x12288 S12288x12288 [1] [0] [0] [1] [] []

variable [Facts₀]

def dot_S12288x3_S3x12288_S12288x12288_1_0_0_1_n_n : DotDims S12288x3 S3x12288 S12288x12288 where
  lhsContracting := [1]
  rhsContracting := [0]
  lhsNonContracting := [0]
  rhsNonContracting := [1]
  lhsBatch := []
  rhsBatch := []
  wf := dot_S12288x3_S3x12288_S12288x12288_1_0_0_1_n_n_wf

class Facts : Prop extends Facts₀ where

variable [Facts]
-- ==== Proof.Pieces.lean ====
/-
  What one grid point leaves behind, as values.

  The body keeps, in a scratch row carried from point to point, the running minimum over the pred tiles seen so far
  of the squared distances to each true point of the current true tile; it writes, at every point, the minimum over
  the current true tile of the squared distances to each pred point of the current pred tile; and at the last pred
  tile it writes the square root of the scratch row. Three control cases: the first pred tile (the scratch row is
  reset to +∞ before it is used), a middle one, and the last one. Here each case's stored pieces are read back as the
  body's arithmetic applied to the point's two input blocks (and, off the first tile, to what the scratch held before).
-/
import proofs.«136097_j35192962023870_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Dist

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The scratch row after a point -/

/-- First pred tile: the row is reset to +∞, then lowered by this tile's minima. -/
theorem sc_A (c : Dev nD) (i : grid0.Coords) (a2 : Memref sig .tc .vmem S3x1024 .f32) (h2 : a2.IsWhole) (a3 : Memref sig .tc .vmem S2048x3 .f32) (h3 : a3.IsWhole) (a4 : Memref sig .tc .vmem S1x1024 .f32) (h4 : a4.IsWhole) (a5 : Memref sig .tc .vmem S1x1x2048 .f32) (h5 : a5.IsWhole) (a6 : Memref sig .tc .vmem S1x1024 .f32) (h6 : a6.IsWhole) (hc0 : cond0_0 i) (hc1 : ¬cond0_1 i) (x0 : Vec F S3x1024 .f32) (x1 : Vec F S2048x3 .f32) :
    sout0_A_0 c i a2 h2 a3 h3 a4 h4 a5 h5 a6 h6 hc0 hc1 x0 x1 = k0_pay4 x0 x1 (k0_pay2 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x1024) hz2, View.readCov_unit_zero (S := S1x1024) _ hz2]
  simp only [View.readAt_eq_ld, h2.read_unread, h3.read_unread, View.ld_unit_zero (S := S3x1024) hz2,
    View.ld_unit_zero (S := S2048x3) hz2]

/-- A middle pred tile: the row the point before left, lowered by this tile's minima. -/
theorem sc_B (c : Dev nD) (i : grid0.Coords) (a2 : Memref sig .tc .vmem S3x1024 .f32) (h2 : a2.IsWhole) (a3 : Memref sig .tc .vmem S2048x3 .f32) (h3 : a3.IsWhole) (a4 : Memref sig .tc .vmem S1x1024 .f32) (h4 : a4.IsWhole) (a5 : Memref sig .tc .vmem S1x1x2048 .f32) (h5 : a5.IsWhole) (a6 : Memref sig .tc .vmem S1x1024 .f32) (h6 : a6.IsWhole) (hc0 : ¬cond0_0 i) (hc1 : ¬cond0_1 i) (x0 : Vec F S3x1024 .f32) (x1 : Vec F S2048x3 .f32) (xs0 : Vec F S1x1024 .f32) :
    sout0_B_0 c i a2 h2 a3 h3 a4 h4 a5 h5 a6 h6 hc0 hc1 x0 x1 xs0 = k0_pay4 x0 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  rw [View.canon_unit_zero hz2]
  simp only [View.readAt_eq_ld, h2.read_unread, h3.read_unread, h6.read_unread, View.ld_unit_zero (S := S3x1024) hz2,
    View.ld_unit_zero (S := S2048x3) hz2, View.ld_unit_zero (S := S1x1024) hz2]

/-- The last pred tile: the same. -/
theorem sc_C (c : Dev nD) (i : grid0.Coords) (a2 : Memref sig .tc .vmem S3x1024 .f32) (h2 : a2.IsWhole) (a3 : Memref sig .tc .vmem S2048x3 .f32) (h3 : a3.IsWhole) (a4 : Memref sig .tc .vmem S1x1024 .f32) (h4 : a4.IsWhole) (a5 : Memref sig .tc .vmem S1x1x2048 .f32) (h5 : a5.IsWhole) (a6 : Memref sig .tc .vmem S1x1024 .f32) (h6 : a6.IsWhole) (hc0 : ¬cond0_0 i) (hc1 : cond0_1 i) (x0 : Vec F S3x1024 .f32) (x1 : Vec F S2048x3 .f32) (xs0 : Vec F S1x1024 .f32) :
    sout0_C_0 c i a2 h2 a3 h3 a4 h4 a5 h5 a6 h6 hc0 hc1 x0 x1 xs0 = k0_pay4 x0 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S3x1024) hz2,
    View.ld_unit_zero (S := S2048x3) hz2, View.ld_unit_zero (S := S1x1024) hz2]

/-! ## The per-pred-point minima over the current true tile, written at every point -/

theorem o3_A (c : Dev nD) (i : grid0.Coords) (a2 : Memref sig .tc .vmem S3x1024 .f32) (h2 : a2.IsWhole) (a3 : Memref sig .tc .vmem S2048x3 .f32) (h3 : a3.IsWhole) (a4 : Memref sig .tc .vmem S1x1024 .f32) (h4 : a4.IsWhole) (a5 : Memref sig .tc .vmem S1x1x2048 .f32) (h5 : a5.IsWhole) (a6 : Memref sig .tc .vmem S1x1024 .f32) (h6 : a6.IsWhole) (hc0 : cond0_0 i) (hc1 : ¬cond0_1 i) (x0 : Vec F S3x1024 .f32) (x1 : Vec F S2048x3 .f32) :
    out0_A_3 c i a2 h2 a3 h3 a4 h4 a5 h5 a6 h6 hc0 hc1 x0 x1 = k0_pay5 x0 x1 := by
  unfold out0_A_3
  rw [View.read_writes_eq_canon _ _ _ (cover0_A_3 c i a2 h2 a3 h3 a4 h4 a5 h5 a6 h6 hc0 hc1 x0 x1)]
  unfold kernelRun0_A
  dsimp only
  sl_unfold_words
  rw [View.canon_unit_zero hz3]
  simp only [View.readAt_eq_ld, h2.read_unread, h3.read_unread, View.ld_unit_zero (S := S3x1024) hz2,
    View.ld_unit_zero (S := S2048x3) hz2]

theorem o3_B (c : Dev nD) (i : grid0.Coords) (a2 : Memref sig .tc .vmem S3x1024 .f32) (h2 : a2.IsWhole) (a3 : Memref sig .tc .vmem S2048x3 .f32) (h3 : a3.IsWhole) (a4 : Memref sig .tc .vmem S1x1024 .f32) (h4 : a4.IsWhole) (a5 : Memref sig .tc .vmem S1x1x2048 .f32) (h5 : a5.IsWhole) (a6 : Memref sig .tc .vmem S1x1024 .f32) (h6 : a6.IsWhole) (hc0 : ¬cond0_0 i) (hc1 : ¬cond0_1 i) (x0 : Vec F S3x1024 .f32) (x1 : Vec F S2048x3 .f32) (xs0 : Vec F S1x1024 .f32) :
    out0_B_3 c i a2 h2 a3 h3 a4 h4 a5 h5 a6 h6 hc0 hc1 x0 x1 xs0 = k0_pay5 x0 x1 := by
  unfold out0_B_3
  rw [View.read_writes_eq_canon _ _ _ (cover0_B_3 c i a2 h2 a3 h3 a4 h4 a5 h5 a6 h6 hc0 hc1 x0 x1 xs0)]
  unfold kernelRun0_B
  dsimp only
  sl_unfold_words
  rw [View.canon_unit_zero hz3]
  simp only [View.readAt_eq_ld, h2.read_unread, h3.read_unread, View.ld_unit_zero (S := S3x1024) hz2,
    View.ld_unit_zero (S := S2048x3) hz2]

theorem o3_C (c : Dev nD) (i : grid0.Coords) (a2 : Memref sig .tc .vmem S3x1024 .f32) (h2 : a2.IsWhole) (a3 : Memref sig .tc .vmem S2048x3 .f32) (h3 : a3.IsWhole) (a4 : Memref sig .tc .vmem S1x1024 .f32) (h4 : a4.IsWhole) (a5 : Memref sig .tc .vmem S1x1x2048 .f32) (h5 : a5.IsWhole) (a6 : Memref sig .tc .vmem S1x1024 .f32) (h6 : a6.IsWhole) (hc0 : ¬cond0_0 i) (hc1 : cond0_1 i) (x0 : Vec F S3x1024 .f32) (x1 : Vec F S2048x3 .f32) (xs0 : Vec F S1x1024 .f32) :
    out0_C_3 c i a2 h2 a3 h3 a4 h4 a5 h5 a6 h6 hc0 hc1 x0 x1 xs0 = k0_pay5 x0 x1 := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, View.ld_unit_zero (S := S3x1024) hz2,
    View.ld_unit_zero (S := S2048x3) hz2]

/-! ## The per-true-point result, written at the last pred tile: the square root of the finished scratch row -/

theorem o2_C (c : Dev nD) (i : grid0.Coords) (a2 : Memref sig .tc .vmem S3x1024 .f32) (h2 : a2.IsWhole) (a3 : Memref sig .tc .vmem S2048x3 .f32) (h3 : a3.IsWhole) (a4 : Memref sig .tc .vmem S1x1024 .f32) (h4 : a4.IsWhole) (a5 : Memref sig .tc .vmem S1x1x2048 .f32) (h5 : a5.IsWhole) (a6 : Memref sig .tc .vmem S1x1024 .f32) (h6 : a6.IsWhole) (hc0 : ¬cond0_0 i) (hc1 : cond0_1 i) (x0 : Vec F S3x1024 .f32) (x1 : Vec F S2048x3 .f32) (xs0 : Vec F S1x1024 .f32) :
    out0_C_2 c i a2 h2 a3 h3 a4 h4 a5 h5 a6 h6 hc0 hc1 x0 x1 xs0 = k0_pay1 (k0_pay4 x0 x1 xs0) := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz2, View.readCov_unit_zero (S := S1x1024) _ hz2]
  simp only [View.readAt_eq_ld, h2.read_unread, h3.read_unread, h6.read_unread, View.ld_unit_zero (S := S3x1024) hz2,
    View.ld_unit_zero (S := S2048x3) hz2, View.ld_unit_zero (S := S1x1024) hz2]

end Cert.KernelIdeal.Dist

end
-- ==== Proof.Spec.lean ====
/-
  The mathematics of the nearest-neighbour distances, over the extended reals, with no program in sight.

  For true points `A i` and pred points `B j` in three coordinates the squared distance is the sum of the three
  squared coordinate differences; the distance is its square root. For each true point the result is the least
  distance to a pred point, for each pred point the least distance to a true point.

  Two facts join the two ways of computing this. First, on real numbers the expanded form
  `|a|² + |b|² − 2 a·b` is the sum of squared differences, and that sum is never negative, so clamping it at zero
  changes nothing. (This needs real entries: with an infinite entry the expanded form meets `∞ − ∞`.) Second, the
  square root on the extended reals (`√⊤ = ⊤`, and `⊥` below zero) is monotone, so it commutes with a minimum
  and with a minimum taken over a finite family started from any value: the root of the least squared distance is
  the least distance.
-/
import Idealize.ShloMosaic.PureOps.Ideal
import Mathlib.Data.Finset.Fold

noncomputable section

namespace Cert.Nearest

open Idealize.ShloMosaic

/-! ## The two float literals that are not zero -/

/-- The pattern of `2.0` denotes the real number two. -/
theorem ofBits_two : Ideal.ofBits .f32 0x40000000#32 = ((2 : ℝ) : EReal) := by
  simp [Ideal.ofBits, Ideal.ieee, -EReal.coe_mul]; norm_num

/-- The pattern of `+∞` denotes the top of the extended reals. -/
theorem ofBits_inf : Ideal.ofBits .f32 0x7F800000#32 = (⊤ : EReal) := by
  simp [Ideal.ofBits, Ideal.ieee]

/-- The pattern of `+0.0` denotes zero. -/
theorem ofBits_zero : Ideal.ofBits .f32 0x00000000#32 = (0 : EReal) := by
  simp [Ideal.ofBits, Ideal.ieee]

/-! ## The square root is monotone -/

theorem sqrt_mono : Monotone Ideal.sqrt := by
  intro x y hxy
  induction x using EReal.rec with
  | bot => exact bot_le
  | top =>
    obtain rfl : y = ⊤ := top_le_iff.mp hxy
    exact le_rfl
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · rw [if_neg hr, if_neg (by linarith : ¬ s < 0)]
        exact EReal.coe_le_coe_iff.mpr (Real.sqrt_le_sqrt hrs)

/-- So it commutes with a minimum of two, -/
theorem sqrt_min (a b : EReal) : Ideal.sqrt (min a b) = min (Ideal.sqrt a) (Ideal.sqrt b) :=
  sqrt_mono.map_min

/-- and with a minimum over a finite family started from any value. -/
theorem sqrt_fold_min {ι : Type*} (s : Finset ι) (b : EReal) (f : ι → EReal) :
    Ideal.sqrt (s.fold min b f) = s.fold min (Ideal.sqrt b) (fun k => Ideal.sqrt (f k)) := by
  classical
  induction s using Finset.induction_on with
  | empty => rfl
  | insert a s ha ih => rw [Finset.fold_insert ha, Finset.fold_insert ha, sqrt_min, ih]

/-! ## The squared distance, in the two spellings -/

/-- The sum of the three squared coordinate differences, accumulated from zero in coordinate order. -/
def sqd (a0 a1 a2 b0 b1 b2 : EReal) : EReal :=
  0 + (b0 - a0) * (b0 - a0) + (b1 - a1) * (b1 - a1) + (b2 - a2) * (b2 - a2)

/-- The expanded form, clamped at zero: each squared norm and the inner product summed from zero. -/
def sqx (a0 a1 a2 b0 b1 b2 : EReal) : EReal :=
  max ((0 + (a0 * a0 + a1 * a1 + a2 * a2)) + (0 + (b0 * b0 + b1 * b1 + b2 * b2))
      - ((2 : ℝ) : EReal) * (a0 * b0 + a1 * b1 + a2 * b2)) 0

/-- On real entries the two spellings are one number. -/
theorem sqx_eq_sqd (a0 a1 a2 b0 b1 b2 : ℝ) :
    sqx (a0 : EReal) a1 a2 b0 b1 b2 = sqd (a0 : EReal) a1 a2 b0 b1 b2 := by
  unfold sqx sqd
  simp only [zero_add, ← EReal.coe_mul, ← EReal.coe_add, ← EReal.coe_sub]
  rw [max_eq_left]
  · exact congrArg _ (by ring)
  · rw [← EReal.coe_zero, EReal.coe_le_coe_iff]
    nlinarith [sq_nonneg (b0 - a0), sq_nonneg (b1 - a1), sq_nonneg (b2 - a2)]

/-! ## The two results, as least distances -/

section Results

variable (A B : Fin 12288 → Fin 3 → EReal)

/-- The squared distance between true point `i` and pred point `j`. -/
def d2 (i j : Fin 12288) : EReal := sqd (A i 0) (A i 1) (A i 2) (B j 0) (B j 1) (B j 2)

/-- For true point `i`: the least distance to a pred point. -/
def nearPred (i : Fin 12288) : EReal := Finset.univ.fold min ⊤ fun j => Ideal.sqrt (d2 A B i j)

/-- For pred point `j`: the least distance to a true point. -/
def nearTrue (j : Fin 12288) : EReal := Finset.univ.fold min ⊤ fun i => Ideal.sqrt (d2 A B i j)

/-- A value is the least distance from true point `i` as soon as it sits below exactly the lower bounds of those distances. -/
theorem eq_nearPred (i : Fin 12288) (x : EReal)
    (h : ∀ z : EReal, z ≤ x ↔ ∀ j : Fin 12288, z ≤ Ideal.sqrt (d2 A B i j)) : x = nearPred A B i :=
  eq_of_forall_le_iff fun z => by
    rw [h z, nearPred, Finset.le_fold_min]
    exact ⟨fun hz => ⟨le_top, fun j _ => hz j⟩, fun hz j => hz.2 j (Finset.mem_univ j)⟩

theorem eq_nearTrue (j : Fin 12288) (x : EReal)
    (h : ∀ z : EReal, z ≤ x ↔ ∀ i : Fin 12288, z ≤ Ideal.sqrt (d2 A B i j)) : x = nearTrue A B j :=
  eq_of_forall_le_iff fun z => by
    rw [h z, nearTrue, Finset.le_fold_min]
    exact ⟨fun hz => ⟨le_top, fun i _ => hz i⟩, fun hz i => hz.2 i (Finset.mem_univ i)⟩

end Results

end Cert.Nearest

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMin.lean ====
/-
  Minimum reductions of an array of extended reals, read at an index.

  A `multi_reduction <minimumf>` over one axis is, at each kept index, the minimum — taken from the accumulator's
  value — over that axis's coordinates of the source. For a two-axis array this gives the column minima (reducing the
  rows away) and the row minima (reducing the columns away). A minimum is best carried by what lies below it: a value
  is below the minimum exactly when it is below the start value and below every entry.
-/
import proofs.«136097_j35192962023870_2_alg».proof.Proof.LibLayout
import Idealize.ShloMosaic.Lib.ValueLayout
import Idealize.ShloMosaic.PureOps.Ideal.Laws

namespace Cert.Nearest.MinRead

open Idealize.ShloMosaic Idealize.ShloMosaic.ValueIdx

/-- At the ideal values a `multi_reduction <minimumf>` over ONE axis is the minimum, from the accumulator's value, over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The index a reduction along the columns inserts: column `q` with row `k` put back is `(k, q)`. -/
theorem lift_col {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- COLUMN minima of an `[a, b]` array (the rows reduced away): what lies below the minimum of column `q`. -/
theorem le_colMin {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.minimumf.neutral .f32 hφ) (q : Fin b) (z : EReal) :
    z ≤ multiReduction .minimumf [0] (⟨1, ![b]⟩ : Shape) src acc h hφ hacc (ix1 q)
      ↔ z ≤ Ideal.ofBits .f32 acc ∧ ∀ k : Fin a, z ≤ src (ix2 k q) := by
  rw [multiReduction_minimumf_single, Finset.le_fold_min]
  refine and_congr Iff.rfl ⟨fun hz k => ?_, fun hz k _ => ?_⟩
  · exact (hz k (Finset.mem_univ _)).trans_eq (congrArg src (lift_col h q k))
  · exact (hz _).trans_eq (congrArg src (lift_col h q k)).symm

/-- ROW minima of an `[a, b]` array (the columns reduced away): what lies below the minimum of row `p`. -/
theorem le_rowMin {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.minimumf.neutral .f32 hφ) (p : Fin a) (z : EReal) :
    z ≤ multiReduction .minimumf [1] (⟨1, ![a]⟩ : Shape) src acc h hφ hacc (ix1 p)
      ↔ z ≤ Ideal.ofBits .f32 acc ∧ ∀ k : Fin b, z ≤ src (ix2 p k) := by
  rw [multiReduction_minimumf_single, Finset.le_fold_min]
  refine and_congr Iff.rfl ⟨fun hz k => ?_, fun hz k _ => ?_⟩
  · exact (hz k (Finset.mem_univ _)).trans_eq (congrArg src (Cert.Attn.Layout.lift_row h p k))
  · exact (hz _).trans_eq (congrArg src (Cert.Attn.Layout.lift_row h p k)).symm

/-- The host's one-operand reduction by `minimum` over one axis, likewise a minimum over that axis's coordinates. -/
theorem hostReduce_min_single {s t u : Shape} {a : Fin s.rank} (x : s.Idx → EReal) (init : u.Idx → EReal)
    (h' : s.ReducesTo [a] t) (h : s.Reduces [a] t) (hu : 0 < u.numel) (j : t.Idx) :
    Host.reduce (FloatOps.minimumf (F := Ideal) (φ := .f32)) x init h' hu j
      = (Finset.univ : Finset (Fin (s.size a))).fold min (init (Shape.Idx.first hu)) (x ∘ h.lift j) :=
  Host.reduce_eq_fold_single _ x init h' h hu j

end Cert.Nearest.MinRead
-- ==== Proof.Payload.lean ====
/-
  The body's arithmetic at the ideal values, read entry by entry.

  With `x0` the true tile (three coordinate rows of 1024 points) and `x1` the pred tile (2048 points of three
  coordinates): the tile of squared distances holds, at (pred `jj`, true `q`), the sum of the three squared
  coordinate differences; the scratch row after the point is, at true `q`, the smaller of what it held and the least
  squared distance from `q` to a pred point of the tile; the row written for the pred points is, at pred `jj`, the least
  squared distance from `jj` to a true point of the tile; and the last tile's output is the entrywise square root.
  The minima are carried by their lower bounds.
-/
import proofs.«136097_j35192962023870_2_alg».proof.Proof.Gen.KernelIdeal.Skeleton
import proofs.«136097_j35192962023870_2_alg».proof.Proof.Spec
import proofs.«136097_j35192962023870_2_alg».proof.Proof.LibMin
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Dist

open Cert.KernelIdeal Cert.KernelIdeal.Gen Idealize.ShloMosaic.ValueIdx Cert.Nearest

/-- The squared-distance tile at (pred `jj`, true `q`). -/
theorem pay3_apply (x0 : FVec Ideal S3x1024 .f32) (x1 : FVec Ideal S2048x3 .f32) (jj : Fin 2048) (q : Fin 1024) :
    k0_pay3 (F := Ideal) x0 x1 (ix2 jj q)
      = sqd (x0 (ix2 0 q)) (x0 (ix2 1 q)) (x0 (ix2 2 q)) (x1 (ix2 jj 0)) (x1 (ix2 jj 1)) (x1 (ix2 jj 2)) := by
  have hb (k : Fin 3) (o : Nat) (hk : k.val = o) (h : S2048x3.Slices ![0, o] S2048x1) (h' : S2048x1.Broadcasts S2048x1024) :
      broadcastTo S2048x1024 (extractStridedSlice S2048x1 ![0, o] x1 h) h' (ix2 jj q) = x1 (ix2 jj k) :=
    (Cert.Attn.Layout.broadcastTo_a1_ab_apply _ h' jj q).trans
      (slice2_axis1_apply o x1 h jj (0 : Fin 1) k (by have : ((0 : Fin 1) : ℕ) = 0 := rfl; omega))
  have ha (k : Fin 3) (o : Nat) (hk : k.val = o) (h : S3x1024.Slices ![o, 0] S1x1024) (h' : S1x1024.Broadcasts S2048x1024) :
      broadcastTo S2048x1024 (extractStridedSlice S1x1024 ![o, 0] x0 h) h' (ix2 jj q) = x0 (ix2 k q) :=
    (broadcastTo_1b_ab_apply _ h' jj q).trans
      (slice2_axis0_apply o x0 h (0 : Fin 1) q k (by have : ((0 : Fin 1) : ℕ) = 0 := rfl; omega))
  unfold k0_pay3 sqd
  simp only [shapeCast_self, addf_apply, mulf_apply, subf_apply, broadcast_apply]
  rw [hb 0 0 rfl, ha 0 0 rfl, hb 1 1 rfl, ha 1 1 rfl, hb 2 2 rfl, ha 2 2 rfl]
  exact congrArg (fun w => w + _ + _ + _) ofBits_zero

/-- What lies below the scratch row's entry for true `q` after the point. -/
theorem le_pay4 (x0 : FVec Ideal S3x1024 .f32) (x1 : FVec Ideal S2048x3 .f32) (xs : FVec Ideal S1x1024 .f32)
    (q : Fin 1024) (z : EReal) :
    z ≤ k0_pay4 (F := Ideal) x0 x1 xs (ix2 0 q)
      ↔ z ≤ xs (ix2 0 q) ∧ ∀ jj : Fin 2048, z ≤ k0_pay3 (F := Ideal) x0 x1 (ix2 jj q) := by
  unfold k0_pay4
  simp only [shapeCast_self, minimumf_apply]
  rw [le_min_iff, shapeCast_a_1a_apply]
  refine and_congr Iff.rfl ((MinRead.le_colMin (k0_pay3 (F := Ideal) x0 x1) _ _ _ _ q z).trans ?_)
  rw [ofBits_inf]; exact ⟨fun h => h.2, fun h => ⟨le_top, h⟩⟩

/-- What lies below the written row's entry for pred `jj`. -/
theorem le_pay5 (x0 : FVec Ideal S3x1024 .f32) (x1 : FVec Ideal S2048x3 .f32) (jj : Fin 2048) (z : EReal) :
    z ≤ k0_pay5 (F := Ideal) x0 x1 (ix3 0 0 jj) ↔ ∀ q : Fin 1024, z ≤ k0_pay3 (F := Ideal) x0 x1 (ix2 jj q) := by
  unfold k0_pay5
  dsimp only
  rw [shapeCast_ab_1ab_apply, transpose_ix2_apply, Cert.Attn.Layout.shapeCast_a_a1_apply]
  refine (MinRead.le_rowMin (k0_pay3 (F := Ideal) x0 x1) _ _ _ _ jj z).trans ?_
  rw [ofBits_inf]; exact ⟨fun h => h.2, fun h => ⟨le_top, h⟩⟩

/-- The last tile's output: the entrywise square root. -/
theorem pay1_apply (v : FVec Ideal S1x1024 .f32) (i : S1x1024.Idx) : k0_pay1 (F := Ideal) v i = Ideal.sqrt (v i) := rfl

/-- The reset row holds `⊤` everywhere. -/
theorem pay2_apply (i : S1x1024.Idx) : k0_pay2 (F := Ideal) i = (⊤ : EReal) := by
  unfold k0_pay2
  simp only [shapeCast_self, broadcast_apply]
  exact ofBits_inf

end Cert.KernelIdeal.Dist

end
-- ==== Proof.Blocks.lean ====
/-
  The two input tiles at a grid point, as entries of the argument arrays.

  Point `t` of the 12 × 6 grid works on true tile `t / 6` and pred tile `t % 6`. The first operand is the true array
  transposed (three coordinate rows of 12288 points), cut into blocks of 1024 columns: entry (coordinate `k`, column
  `q`) of the block is coordinate `k` of true point `1024 · (t / 6) + q`. The second operand is the pred array, cut
  into blocks of 2048 rows: entry (row `jj`, coordinate `k`) of the block is coordinate `k` of pred point
  `2048 · (t % 6) + jj`. So the tile of squared distances the body forms is the squared distances between those points.
-/
import proofs.«136097_j35192962023870_2_alg».proof.Proof.Gen.KernelIdeal.Frame
import proofs.«136097_j35192962023870_2_alg».proof.Proof.Payload
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Dist

open Cert.KernelIdeal Cert.KernelIdeal.Gen Idealize.ShloMosaic.ValueIdx Cert.Nearest

variable (m : (ℓ : Loc nD τ sig) → Buf (Elt Ideal) ℓ)

/-- The true points, by point and coordinate: the first argument array's entries. -/
def truePts (c : Dev nD) : Fin 12288 → Fin 3 → EReal :=
  fun i k => (m ((c : Thread nD τ).loc main_arg0) : S12288x3.Idx → EReal) (ix2 i k)

/-- The pred points, by point and coordinate: the second argument array's entries. -/
def predPts (c : Dev nD) : Fin 12288 → Fin 3 → EReal :=
  fun j k => (m ((c : Thread nD τ).loc main_arg1) : S12288x3.Idx → EReal) (ix2 j k)

/-- The printed index maps over the grid: which block of each array point `t` works on. -/
theorem idx_facts : ∀ t : Fin cfg0.N,
    win0_0.index t (0 : Fin 2) = 0 ∧ win0_0.index t (1 : Fin 2) = t.val / 6
    ∧ win0_1.index t (0 : Fin 2) = t.val % 6 ∧ win0_1.index t (1 : Fin 2) = 0
    ∧ win0_2.index t (0 : Fin 2) = 0 ∧ win0_2.index t (1 : Fin 2) = t.val / 6
    ∧ win0_3.index t (0 : Fin 3) = t.val / 6 ∧ win0_3.index t (1 : Fin 3) = 0 ∧ win0_3.index t (2 : Fin 3) = t.val % 6 :=
  (by decide +kernel : ∀ t : Fin grid0.N, _)

/-- The region finds, as its first operand, the true array transposed. -/
theorem V_v0 (c : Dev nD) : (V m c main_v0 : S3x12288.Idx → EReal)
    = transpose S3x12288 [1, 0] (m ((c : Thread nD τ).loc main_arg0)) transposes_S12288x3_S3x12288_1_0 := by
  show StableHlo.after hostOps0 (fun b => m (c, b)) (Proc.devRef .tc main_v0) = _
  after_results

/-- The true tile at point `t`: coordinate `k` of true point `1024 · (t / 6) + q`. -/
theorem iblk0_apply (c : Dev nD) (t : Fin cfg0.N) (k : Fin 3) (q : Fin 1024) (I : Fin 12288)
    (hI : I.val = t.val / 6 * 1024 + q.val) :
    (iblk m c 0 t : Vec Ideal S3x1024 .f32) (ix2 k q) = truePts m c I k := by
  unfold iblk
  rw [View.read_apply]
  show V m c main_v0 (((cfg0.win 0).blk t).view.emb (ix2 k q)) = _
  rw [V_v0]
  obtain ⟨e0, e1, -⟩ := idx_facts t
  refine transpose_apply [1, 0] _ _ _ (ix2 I k) fun b => ?_
  match b with
  | ⟨0, _⟩ => show k.val = win0_0.index t (0 : Fin 2) * 3 + 1 * k.val; rw [e0]; omega
  | ⟨1, _⟩ => show I.val = win0_0.index t (1 : Fin 2) * 1024 + 1 * q.val; rw [e1]; omega

/-- The pred tile at point `t`: coordinate `k` of pred point `2048 · (t % 6) + jj`. -/
theorem iblk1_apply (c : Dev nD) (t : Fin cfg0.N) (jj : Fin 2048) (k : Fin 3) (J : Fin 12288)
    (hJ : J.val = t.val % 6 * 2048 + jj.val) :
    (iblk m c 1 t : Vec Ideal S2048x3 .f32) (ix2 jj k) = predPts m c J k := by
  unfold iblk
  rw [View.read_apply]
  show V m c main_arg1 (((cfg0.win 1).blk t).view.emb (ix2 jj k)) = _
  rw [V_main_arg1]
  obtain ⟨-, -, e2, e3, -⟩ := idx_facts t
  refine congrArg (m ((c : Thread nD τ).loc main_arg1)) (funext fun a => Fin.ext ?_)
  match a with
  | ⟨0, _⟩ => show win0_1.index t (0 : Fin 2) * 2048 + 1 * jj.val = J.val; rw [e2]; omega
  | ⟨1, _⟩ => show win0_1.index t (1 : Fin 2) * 3 + 1 * k.val = k.val; rw [e3]; omega

/-- So the tile of squared distances formed at point `t` holds, at (pred `jj`, true `q`), the squared distance between
    true point `1024 · (t / 6) + q` and pred point `2048 · (t % 6) + jj`. -/
theorem tile_apply (c : Dev nD) (t : Fin cfg0.N) (jj : Fin 2048) (q : Fin 1024) (I J : Fin 12288)
    (hI : I.val = t.val / 6 * 1024 + q.val) (hJ : J.val = t.val % 6 * 2048 + jj.val) :
    k0_pay3 (F := Ideal) (iblk m c 0 t) (iblk m c 1 t) (ix2 jj q) = d2 (truePts m c) (predPts m c) I J := by
  refine (pay3_apply (iblk m c 0 t) (iblk m c 1 t) jj q).trans ?_
  rw [iblk0_apply m c t 0 q I hI, iblk0_apply m c t 1 q I hI, iblk0_apply m c t 2 q I hI,
    iblk1_apply m c t jj 0 J hJ, iblk1_apply m c t jj 1 J hJ, iblk1_apply m c t jj 2 J hJ]
  rfl

end Cert.KernelIdeal.Dist

end
-- ==== Proof.Scratch.lean ====
/-
  What the carried scratch row and the two outputs hold after each grid point.

  Points run through the pred tiles (the fast axis, six of them) inside each true tile (twelve of them). The scratch
  row is reset at the first pred tile and lowered at each one; so after point `n` its entry for true point `q` of the
  current true tile is the least squared distance from that point to the pred points of tiles `0 … n % 6`. This is
  proved by induction on the point — each step uses only the point before — with the minimum carried by its lower
  bounds: a value is below the entry exactly when it is below every one of those squared distances.
-/
import proofs.«136097_j35192962023870_2_alg».proof.Proof.Gen.KernelIdeal.Frame
import proofs.«136097_j35192962023870_2_alg».proof.Proof.Pieces
import proofs.«136097_j35192962023870_2_alg».proof.Proof.Blocks

set_option maxRecDepth 16384

noncomputable section

open Idealize.ShloMosaic Idealize.ShloMosaic.TcCoe Idealize.SL.Sem
open Idealize.ShloMosaic.Pipeline (Dat)

namespace Cert.KernelIdeal.Dist

open Cert.KernelIdeal Cert.KernelIdeal.Gen Idealize.ShloMosaic.ValueIdx Cert.Nearest

variable (m : (ℓ : Loc nD τ sig) → Buf (Elt Ideal) ℓ)

/-! ## Each point's stored values, from the case the point is in -/

/-- At a first pred tile the scratch row is this tile's minima, taken from `⊤`. -/
theorem scr_first_t (c : Dev nD) (t : Fin cfg0.N) (h0 : t.val % 6 = 0) :
    (outsAt0 m c t.val t.isLt).2.2 = k0_pay4 (F := Ideal) (iblk m c 0 t) (iblk m c 1 t) (k0_pay2 (F := Ideal)) := by
  have h1 : ¬t.val % 6 = 5 := by omega
  rw [outsAt0_A m c t h0 h1]
  dsimp only
  exact sc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- At a later pred tile it is the row the point before left, lowered by this tile's minima. -/
theorem scr_next_t (c : Dev nD) (t : Fin cfg0.N) (h0 : ¬t.val % 6 = 0) :
    (outsAt0 m c t.val t.isLt).2.2 = k0_pay4 (F := Ideal) (iblk m c 0 t) (iblk m c 1 t)
      (outsAt0 m c (t.val - 1) (Nat.lt_of_le_of_lt (Nat.sub_le _ _) t.isLt)).2.2 := by
  by_cases h1 : t.val % 6 = 5
  · rw [outsAt0_C m c t h0 h1]
    dsimp only
    exact sc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact sc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At every point the second output's buffer holds this tile pair's per-pred-point minima. -/
theorem o3_at (c : Dev nD) (t : Fin cfg0.N) :
    (outsAt0 m c t.val t.isLt).2.1 = k0_pay5 (F := Ideal) (iblk m c 0 t) (iblk m c 1 t) := by
  by_cases h0 : t.val % 6 = 0
  · have h1 : ¬t.val % 6 = 5 := by omega
    rw [outsAt0_A m c t h0 h1]
    dsimp only
    exact o3_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 6 = 5
    · rw [outsAt0_C m c t h0 h1]
      dsimp only
      exact o3_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact o3_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At a last pred tile the first output's buffer holds the square root of the finished scratch row. -/
theorem o2_at (c : Dev nD) (t : Fin cfg0.N) (h1 : t.val % 6 = 5) :
    (outsAt0 m c t.val t.isLt).1 = k0_pay1 (F := Ideal) (outsAt0 m c t.val t.isLt).2.2 := by
  have h0 : ¬t.val % 6 = 0 := by omega
  rw [outsAt0_C m c t h0 h1]
  dsimp only
  exact (o2_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
    (congrArg (k0_pay1 (F := Ideal)) (sc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm)

/-! ## One step of the scratch row, by lower bounds -/

/-- Lowering a row `prev` at point `t`: a value is below the new entry for true point `q` exactly when it is below the old
    entry and below the squared distances from that true point to the pred points of tile `t % 6`. -/
theorem step_le (c : Dev nD) (t : Fin cfg0.N) (q : Fin 1024) (I : Fin 12288) (hI : I.val = t.val / 6 * 1024 + q.val)
    (z : EReal) (prev : FVec Ideal S1x1024 .f32) :
    z ≤ k0_pay4 (F := Ideal) (iblk m c 0 t) (iblk m c 1 t) prev (ix2 0 q)
      ↔ z ≤ prev (ix2 0 q) ∧ ∀ J : Fin 12288, J.val / 2048 = t.val % 6 → z ≤ d2 (truePts m c) (predPts m c) I J := by
  have hN : t.val < 72 := lt_of_lt_of_eq t.isLt (show cfg0.N = 72 from N_0)
  refine (le_pay4 (iblk m c 0 t) (iblk m c 1 t) prev q z).trans (and_congr Iff.rfl ⟨fun h J hJ => ?_, fun h jj => ?_⟩)
  · have hlt : J.val % 2048 < 2048 := Nat.mod_lt _ (by norm_num)
    exact (h ⟨J.val % 2048, hlt⟩).trans_eq
      (tile_apply m c t ⟨J.val % 2048, hlt⟩ q I J hI (by show J.val = t.val % 6 * 2048 + J.val % 2048; omega))
  · have hJ : t.val % 6 * 2048 + jj.val < 12288 := by have := jj.isLt; omega
    refine (h ⟨_, hJ⟩ (by show (t.val % 6 * 2048 + jj.val) / 2048 = t.val % 6; have := jj.isLt; omega)).trans_eq ?_
    exact (tile_apply m c t jj q I ⟨_, hJ⟩ hI rfl).symm

/-! ## The scratch row after point `n` -/

theorem scratch_le (c : Dev nD) (n : ℕ) : ∀ (hn : n < cfg0.N) (q : Fin 1024) (I : Fin 12288), I.val = n / 6 * 1024 + q.val →
    ∀ z : EReal, (z ≤ (outsAt0 m c n hn).2.2 (ix2 0 q)
      ↔ ∀ J : Fin 12288, J.val / 2048 ≤ n % 6 → z ≤ d2 (truePts m c) (predPts m c) I J) := by
  induction n using Nat.strong_induction_on with
  | _ n ih =>
    intro hn q I hI z
    by_cases h0 : n % 6 = 0
    · rw [show (outsAt0 m c n hn).2.2 = _ from scr_first_t m c ⟨n, hn⟩ h0]
      refine (step_le m c ⟨n, hn⟩ q I hI z _).trans ?_
      rw [pay2_apply]
      constructor
      · rintro ⟨-, h⟩ J hJ
        exact h J (by show J.val / 2048 = n % 6; omega)
      · intro h
        exact ⟨le_top, fun J hJ => h J (by have : J.val / 2048 = n % 6 := hJ; omega)⟩
    · have hpos : n - 1 < n := by omega
      have hI' : I.val = (n - 1) / 6 * 1024 + q.val := by omega
      rw [show (outsAt0 m c n hn).2.2 = _ from scr_next_t m c ⟨n, hn⟩ h0]
      refine (step_le m c ⟨n, hn⟩ q I hI z _).trans ?_
      refine (and_congr (ih (n - 1) hpos _ q I hI' z) Iff.rfl).trans ?_
      constructor
      · rintro ⟨h1, h2⟩ J hJ
        by_cases hj : J.val / 2048 = n % 6
        · exact h2 J hj
        · exact h1 J (by omega)
      · intro h
        exact ⟨fun J hJ => h J (by omega), fun J hJ => h J (by have : J.val / 2048 = n % 6 := hJ; omega)⟩

/-- After a last pred tile the row is finished: its entry for true point `q` is below exactly the lower bounds of the
    squared distances to ALL pred points. -/
theorem scratch_done (c : Dev nD) (t : Fin cfg0.N) (h1 : t.val % 6 = 5) (q : Fin 1024) (I : Fin 12288)
    (hI : I.val = t.val / 6 * 1024 + q.val) (z : EReal) :
    z ≤ (outsAt0 m c t.val t.isLt).2.2 (ix2 0 q) ↔ ∀ J : Fin 12288, z ≤ d2 (truePts m c) (predPts m c) I J :=
  (scratch_le m c t.val t.isLt q I hI z).trans
    ⟨fun h J => h J (by have := J.isLt; omega), fun h J _ => h J⟩

end Cert.KernelIdeal.Dist

end
-- ==== Proof.Least.lean ====
/-
  From lower bounds to least distances.

  A quantity whose lower bounds are exactly the common lower bounds of a family of squared distances is that family's
  minimum, and — the square root being monotone — its root is the family's least distance. The true points come in
  twelve tiles of 1024; the least squared distance from a pred point to each tile, minimised over the tiles, is the least
  over all true points.
-/
import proofs.«136097_j35192962023870_2_alg».proof.Proof.Spec

noncomputable section

namespace Cert.Nearest

open Idealize.ShloMosaic

variable (A B : Fin 12288 → Fin 3 → EReal)

/-- A value lying above exactly the common lower bounds of the squared distances from true point `i`: its root is the
    least distance from `i`. -/
theorem sqrt_eq_nearPred (i : Fin 12288) (x : EReal) (h : ∀ z : EReal, z ≤ x ↔ ∀ j : Fin 12288, z ≤ d2 A B i j) :
    Ideal.sqrt x = nearPred A B i := by
  have hx : x = Finset.univ.fold min ⊤ fun j => d2 A B i j :=
    eq_of_forall_le_iff fun z => by
      rw [h z, Finset.le_fold_min]
      exact ⟨fun hz => ⟨le_top, fun j _ => hz j⟩, fun hz j => hz.2 j (Finset.mem_univ j)⟩
  rw [hx, sqrt_fold_min, Ideal.sqrt_top]; rfl

/-- The same for a pred point `j` and the true points. -/
theorem sqrt_eq_nearTrue (j : Fin 12288) (x : EReal) (h : ∀ z : EReal, z ≤ x ↔ ∀ i : Fin 12288, z ≤ d2 A B i j) :
    Ideal.sqrt x = nearTrue A B j := by
  have hx : x = Finset.univ.fold min ⊤ fun i => d2 A B i j :=
    eq_of_forall_le_iff fun z => by
      rw [h z, Finset.le_fold_min]
      exact ⟨fun hz => ⟨le_top, fun i _ => hz i⟩, fun hz i => hz.2 i (Finset.mem_univ i)⟩
  rw [hx, sqrt_fold_min, Ideal.sqrt_top]; rfl

/-- True point `q` of tile `p`. -/
def tilePt (p : Fin 12) (q : Fin 1024) : Fin 12288 := ⟨p.val * 1024 + q.val, by have := p.isLt; have := q.isLt; omega⟩

/-- The least squared distance from pred point `j` to the true points of tile `p`. -/
def tileMin (p : Fin 12) (j : Fin 12288) : EReal := Finset.univ.fold min ⊤ fun q : Fin 1024 => d2 A B (tilePt p q) j

theorem le_tileMin (p : Fin 12) (j : Fin 12288) (z : EReal) :
    z ≤ tileMin A B p j ↔ ∀ q : Fin 1024, z ≤ d2 A B (tilePt p q) j := by
  rw [tileMin, Finset.le_fold_min]
  exact ⟨fun hz q => hz.2 q (Finset.mem_univ q), fun hz => ⟨le_top, fun q _ => hz q⟩⟩

theorem eq_tileMin (p : Fin 12) (j : Fin 12288) (x : EReal)
    (h : ∀ z : EReal, z ≤ x ↔ ∀ q : Fin 1024, z ≤ d2 A B (tilePt p q) j) : x = tileMin A B p j :=
  eq_of_forall_le_iff fun z => by rw [h z, le_tileMin]

/-- Minimising the tile minima over the twelve tiles reaches every true point. -/
theorem le_fold_tileMin (j : Fin 12288) (z : EReal) :
    z ≤ Finset.univ.fold min ⊤ (fun p : Fin 12 => tileMin A B p j) ↔ ∀ i : Fin 12288, z ≤ d2 A B i j := by
  rw [Finset.le_fold_min]
  constructor
  · rintro ⟨-, h⟩ i
    have hp : i.val / 1024 < 12 := by have := i.isLt; omega
    have hq : i.val % 1024 < 1024 := Nat.mod_lt _ (by norm_num)
    refine ((le_tileMin A B ⟨_, hp⟩ j z).mp (h ⟨_, hp⟩ (Finset.mem_univ _)) ⟨_, hq⟩).trans_eq
      (congrArg (fun i' => d2 A B i' j) (Fin.ext ?_))
    show i.val / 1024 * 1024 + i.val % 1024 = i.val
    omega
  · intro h
    exact ⟨le_top, fun p _ => (le_tileMin A B p j z).mpr fun q => h _⟩

/-- So the root of that minimum is the least distance from pred point `j` to a true point. -/
theorem sqrt_fold_tileMin (j : Fin 12288) :
    Ideal.sqrt (Finset.univ.fold min ⊤ fun p : Fin 12 => tileMin A B p j) = nearTrue A B j :=
  sqrt_eq_nearTrue A B j _ (le_fold_tileMin A B j)

end Cert.Nearest

end
-- ==== Proof.Arrays.lean ====
/-
  The two output arrays after the region.

  The first output, a row of 12288 entries, is written one block of 1024 per true tile, at the tile's last pred tile:
  the root of the finished scratch row, so entry `i` is the least distance from true point `i` to a pred point. The second
  output, twelve rows of 12288 entries, is written at every point: block (true tile `p`, pred tile `r`) holds, for each pred
  point of the tile, the least squared distance to a true point of tile `p`. The written blocks tile each array, so each
  array ends as one function of the argument arrays.
-/
import proofs.«136097_j35192962023870_2_alg».proof.Proof.Gen.KernelIdeal.Frame
import proofs.«136097_j35192962023870_2_alg».proof.Proof.Scratch
import proofs.«136097_j35192962023870_2_alg».proof.Proof.Least
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Dist

open Cert.KernelIdeal Cert.KernelIdeal.Gen Idealize.ShloMosaic.ValueIdx Cert.Nearest

variable (m : (ℓ : Loc nD τ sig) → Buf (Elt Ideal) ℓ)

/-- The first output array: entry `i` is the least distance from true point `i`. -/
def rowArr (c : Dev nD) : S1x12288.Idx → EReal := fun i => nearPred (truePts m c) (predPts m c) (i 1)

/-- The second output array: entry (`p`, ·, `j`) is the least squared distance from pred point `j` to true tile `p`. -/
def colArr (c : Dev nD) : S12x1x12288.Idx → EReal := fun i => tileMin (truePts m c) (predPts m c) (i 0) (i 2)

/-! ## The first output -/

/-- What a last-pred-tile point writes back is its block of `rowArr`. -/
theorem flushed2_eq (c : Dev nD) (t : Fin cfg0.N) (hf : (cfg0.win 2).flush t = true) :
    (dats m 0 c).flushed 2 t = ((cfg0.win 2).blk t).view.read (Elt Ideal) (rowArr m c) := by
  have h5 : t.val % 6 = 5 := (flush0_2 t).mp hf
  have hN : t.val < 72 := lt_of_lt_of_eq t.isLt (show cfg0.N = 72 from N_0)
  show (cfg0.win 2).cut (grid0.coords t) ((dats m 0 c).after 2 t) = _
  rw [after0_2, o2_at m c t h5]
  funext y
  rw [View.read_apply]
  obtain ⟨u, q, rfl⟩ : ∃ (u : Fin 1) (q : Fin 1024), y = (ix2 u q : S1x1024.Idx) := ⟨y 0, y 1, eq_ix2 (n0 := 1) (n1 := 1024) y⟩
  obtain rfl : u = 0 := Subsingleton.elim _ _
  have hI : t.val / 6 * 1024 + q.val < 12288 := by have := q.isLt; omega
  obtain ⟨-, -, -, -, e4, e5, -⟩ := idx_facts t
  have hemb : (((cfg0.win 2).blk t).view.emb (ix2 0 q : S1x1024.Idx)) (1 : Fin 2) = (⟨_, hI⟩ : Fin 12288) :=
    Fin.ext (by show win0_2.index t (1 : Fin 2) * 1024 + 1 * q.val = t.val / 6 * 1024 + q.val; rw [e5]; omega)
  show Ideal.sqrt ((outsAt0 m c t.val t.isLt).2.2 (ix2 0 q)) = rowArr m c (((cfg0.win 2).blk t).view.emb (ix2 0 q : S1x1024.Idx))
  refine (sqrt_eq_nearPred _ _ ⟨_, hI⟩ _ (scratch_done m c t h5 q ⟨_, hI⟩ rfl)).trans ?_
  exact congrArg (nearPred (truePts m c) (predPts m c)) hemb.symm

theorem mem_blk2 (t : Fin cfg0.N) (i : S1x12288.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v1_0).slice (win0_2.rect t)).set ↔ _
  rw [View.set_slice_whole, Rect.mem_set_unit]
  exact Iff.rfl

/-- Entry `i` lies in the block written at the last pred tile of true tile `i / 1024`. -/
theorem cover2 (i : S1x12288.Idx) : ∃ t : Fin cfg0.N, (cfg0.win 2).flush t = true ∧ i ∈ ((cfg0.win 2).blk t).view.set := by
  have h0 : (i 0).val < 1 := (i 0).isLt
  have h1 : (i 1).val < 12288 := (i 1).isLt
  have hN : cfg0.N = 72 := N_0
  have ht : (i 1).val / 1024 * 6 + 5 < cfg0.N := by omega
  refine ⟨⟨_, ht⟩, (flush0_2 _).mpr (by show ((i 1).val / 1024 * 6 + 5) % 6 = 5; omega), ?_⟩
  rw [mem_blk2]
  obtain ⟨-, -, -, -, e4, e5, -⟩ := idx_facts ⟨_, ht⟩
  dsimp only at e4 e5
  intro a
  match a with
  | ⟨0, _⟩ =>
    show win0_2.index ⟨_, ht⟩ (0 : Fin 2) * 1 ≤ (i 0).val ∧ (i 0).val < win0_2.index ⟨_, ht⟩ (0 : Fin 2) * 1 + 1
    rw [e4]; omega
  | ⟨1, _⟩ =>
    show win0_2.index ⟨_, ht⟩ (1 : Fin 2) * 1024 ≤ (i 1).val ∧ (i 1).val < win0_2.index ⟨_, ht⟩ (1 : Fin 2) * 1024 + 1024
    rw [e5]; omega

/-- So the first output array ends as `rowArr`. -/
theorem final2 (c : Dev nD) : (dats m 0 c).arrAt 2 cfg0.N = rowArr m c :=
  (dats m 0 c).arrAt_eq_of_cover 2 (rowArr m c) (flushed2_eq m c) cover2

/-! ## The second output -/

/-- What every point writes back is its block of `colArr`. -/
theorem flushed3_eq (c : Dev nD) (t : Fin cfg0.N) :
    (dats m 0 c).flushed 3 t = ((cfg0.win 3).blk t).view.read (Elt Ideal) (colArr m c) := by
  have hN : t.val < 72 := lt_of_lt_of_eq t.isLt (show cfg0.N = 72 from N_0)
  show (cfg0.win 3).cut (grid0.coords t) ((dats m 0 c).after 3 t) = _
  rw [after0_3, o3_at m c t]
  funext y
  rw [View.read_apply]
  obtain ⟨u, v, jj, rfl⟩ : ∃ (u v : Fin 1) (jj : Fin 2048), y = (ix3 u v jj : S1x1x2048.Idx) :=
    ⟨y 0, y 1, y 2, eq_ix3 (n0 := 1) (n1 := 1) (n2 := 2048) y⟩
  obtain rfl : u = 0 := Subsingleton.elim _ _
  obtain rfl : v = 0 := Subsingleton.elim _ _
  have hp : t.val / 6 < 12 := by omega
  have hJ : t.val % 6 * 2048 + jj.val < 12288 := by have := jj.isLt; omega
  obtain ⟨-, -, -, -, -, -, e6, e7, e8⟩ := idx_facts t
  have hemb0 : (((cfg0.win 3).blk t).view.emb (ix3 0 0 jj : S1x1x2048.Idx)) (0 : Fin 3) = (⟨_, hp⟩ : Fin 12) :=
    Fin.ext (by show win0_3.index t (0 : Fin 3) * 1 + 1 * 0 = t.val / 6; rw [e6]; omega)
  have hemb2 : (((cfg0.win 3).blk t).view.emb (ix3 0 0 jj : S1x1x2048.Idx)) (2 : Fin 3) = (⟨_, hJ⟩ : Fin 12288) :=
    Fin.ext (by show win0_3.index t (2 : Fin 3) * 2048 + 1 * jj.val = t.val % 6 * 2048 + jj.val; rw [e8]; omega)
  show k0_pay5 (F := Ideal) (iblk m c 0 t) (iblk m c 1 t) (ix3 0 0 jj) = colArr m c (((cfg0.win 3).blk t).view.emb (ix3 0 0 jj : S1x1x2048.Idx))
  refine (eq_tileMin _ _ ⟨_, hp⟩ ⟨_, hJ⟩ _ fun z => ?_).trans
    (congrArg₂ (tileMin (truePts m c) (predPts m c)) hemb0 hemb2).symm
  refine (le_pay5 (iblk m c 0 t) (iblk m c 1 t) jj z).trans (forall_congr' fun q => ?_)
  rw [tile_apply m c t jj q (tilePt ⟨_, hp⟩ q) ⟨_, hJ⟩ rfl rfl]

theorem mem_blk3 (t : Fin cfg0.N) (i : S12x1x12288.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v1_1).slice (win0_3.rect t)).set ↔ _
  rw [View.set_slice_whole, Rect.mem_set_unit]
  exact Iff.rfl

/-- Entry (`p`, ·, `j`) lies in the block written at true tile `p`, pred tile `j / 2048`. -/
theorem cover3 (i : S12x1x12288.Idx) : ∃ t : Fin cfg0.N, (cfg0.win 3).flush t = true ∧ i ∈ ((cfg0.win 3).blk t).view.set := by
  have h0 : (i 0).val < 12 := (i 0).isLt
  have h1 : (i 1).val < 1 := (i 1).isLt
  have h2 : (i 2).val < 12288 := (i 2).isLt
  have hN : cfg0.N = 72 := N_0
  have ht : (i 0).val * 6 + (i 2).val / 2048 < cfg0.N := by omega
  refine ⟨⟨_, ht⟩, flush0_3 _, ?_⟩
  rw [mem_blk3]
  obtain ⟨-, -, -, -, -, -, e6, e7, e8⟩ := idx_facts ⟨_, ht⟩
  dsimp only at e6 e7 e8
  intro a
  match a with
  | ⟨0, _⟩ =>
    show win0_3.index ⟨_, ht⟩ (0 : Fin 3) * 1 ≤ (i 0).val ∧ (i 0).val < win0_3.index ⟨_, ht⟩ (0 : Fin 3) * 1 + 1
    rw [e6]; omega
  | ⟨1, _⟩ =>
    show win0_3.index ⟨_, ht⟩ (1 : Fin 3) * 1 ≤ (i 1).val ∧ (i 1).val < win0_3.index ⟨_, ht⟩ (1 : Fin 3) * 1 + 1
    rw [e7]; omega
  | ⟨2, _⟩ =>
    show win0_3.index ⟨_, ht⟩ (2 : Fin 3) * 2048 ≤ (i 2).val ∧ (i 2).val < win0_3.index ⟨_, ht⟩ (2 : Fin 3) * 2048 + 2048
    rw [e8]; omega

/-- So the second output array ends as `colArr`. -/
theorem final3 (c : Dev nD) : (dats m 0 c).arrAt 3 cfg0.N = colArr m c :=
  (dats m 0 c).arrAt_eq_of_cover 3 (colArr m c) (fun t _ => flushed3_eq m c t) cover3

end Cert.KernelIdeal.Dist

end
-- ==== Proof.LibCast.lean ====
/-
  A stack of one-row matrices flattened: an `[a, 1, b]` array cast to `[a, b]` reads, at `(i, j)`, the operand at
  `(i, 0, j)` — the two indices have the same row-major position.
-/
import Idealize.ShloMosaic.Lib.ValueLayout

namespace Cert.Nearest.Cast

open Idealize.ShloMosaic Idealize.ShloMosaic.ValueIdx

variable {α : Type}

theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Nearest.Cast
-- ==== Proof.Tail.lean ====
/-
  The host operations after the region, read.

  After the region the program flattens the first output to a vector — the least distance from each true point —,
  flattens the second to twelve rows, takes the minimum of the twelve rows entry by entry from `+∞` and its square
  root — the least distance from each pred point, the tile minima minimised over the tiles and the root taken once —,
  and returns the two vectors' means (their sums from zero, divided by 12288) and the sum of the two means.
-/
import proofs.«136097_j35192962023870_2_alg».proof.Proof.Gen.KernelIdeal.Frame
import proofs.«136097_j35192962023870_2_alg».proof.Proof.Arrays
import proofs.«136097_j35192962023870_2_alg».proof.Proof.LibCast
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Dist

open Cert.KernelIdeal Cert.KernelIdeal.Gen Idealize.ShloMosaic.ValueIdx Cert.Nearest

variable (m : (ℓ : Loc nD τ sig) → Buf (Elt Ideal) ℓ) (ρ : Dev nD → PrngReg)

/-- The least distance from each true point, as a vector. -/
def kMins (c : Dev nD) : FVec Ideal S12288 .f32 := fun i => nearPred (truePts m c) (predPts m c) (i 0)

/-- The least distance from each pred point, as a vector. -/
def kSeeds (c : Dev nD) : FVec Ideal S12288 .f32 := fun j => nearTrue (truePts m c) (predPts m c) (j 0)

/-- The mean the program takes of a vector of 12288 entries: its sum from zero, divided by 12288. -/
def meanOf (v : FVec Ideal S12288 .f32) : FVec Ideal S_ .f32 :=
  Host.divf (F := Ideal) (Host.reduceAdd (F := Ideal) v (constant (F := Ideal) S_ .f32 0x00000000#32) reducesTo_S12288_S_d0 h_S_)
    (constant (F := Ideal) S_ .f32 0x46400000#32)

/-- After the region the two output arrays are as computed. -/
theorem arr2 (c : Dev nD) :
    Pipeline.withArrays (cfgs 0).spec c (V0 m c) (fun w => (dats m 0 c).arrAt w (cfgs 0).N) (Proc.devRef .tc main_v1_0)
      = rowArr m c :=
  (Pipeline.withArrays_arr spec0 launch0.win.arr_inj c _ _ 2).trans (final2 m c)

theorem arr3 (c : Dev nD) :
    Pipeline.withArrays (cfgs 0).spec c (V0 m c) (fun w => (dats m 0 c).arrAt w (cfgs 0).N) (Proc.devRef .tc main_v1_1)
      = colArr m c :=
  (Pipeline.withArrays_arr spec0 launch0.win.arr_inj c _ _ 3).trans (final3 m c)

/-- The first output flattened is the vector of least distances from the true points. -/
theorem flat_row (c : Dev nD) : shapeCast S12288 (rowArr m c) shapeCasts_S1x12288_S12288 = kMins m c := by
  funext i
  obtain ⟨p, rfl⟩ : ∃ p : Fin 12288, i = ix1 p := ⟨i 0, eq_ix1 i⟩
  exact shapeCast_1a_a_apply (rowArr m c) _ p

/-- The host's root of a vector, at an index, is the root of the entry there. -/
theorem sqrt_at (R : FVec Ideal S12288 .f32) (i : S12288.Idx) (x : EReal) (h : R i = x) :
    Host.sqrt (F := Ideal) R i = Ideal.sqrt x := by
  subst h; rfl

set_option maxRecDepth 65536 in
/-- The twelve rows minimised entry by entry, then the root: the least distances from the pred points. -/
theorem min_rows (c : Dev nD) :
    Host.sqrt (F := Ideal) (Host.reduce FloatOps.minimumf (shapeCast S12x12288 (colArr m c) shapeCasts_S12x1x12288_S12x12288)
      (constant (F := Ideal) S_ .f32 0x7F800000#32) reducesTo_S12x12288_S12288_d0 h_S_) = kSeeds m c := by
  funext j
  obtain ⟨q, rfl⟩ : ∃ q : Fin 12288, j = ix1 q := ⟨j 0, eq_ix1 j⟩
  have hred := MinRead.hostReduce_min_single (shapeCast S12x12288 (colArr m c) shapeCasts_S12x1x12288_S12x12288)
    (constant (F := Ideal) S_ .f32 0x7F800000#32) reducesTo_S12x12288_S12288_d0 (by decide) h_S_ (ix1 q)
  have hfold : Finset.fold min (constant (F := Ideal) S_ .f32 0x7F800000#32 (Shape.Idx.first h_S_))
      (shapeCast S12x12288 (colArr m c) shapeCasts_S12x1x12288_S12x12288 ∘ (by decide : S12x12288.Reduces [0] S12288).lift (ix1 q)) Finset.univ
      = Finset.fold min ⊤ (fun p : Fin 12 => tileMin (truePts m c) (predPts m c) p q) Finset.univ := by
    show Finset.fold min (Ideal.ofBits .f32 0x7F800000#32) _ _ = _
    rw [ofBits_inf]
    refine Finset.fold_congr fun p _ => ?_
    exact (congrArg (shapeCast S12x12288 (colArr m c) shapeCasts_S12x1x12288_S12x12288) (MinRead.lift_col _ q p)).trans
      (Cast.shapeCast_a1b_ab_apply (colArr m c) _ _ q)
  have e2 : kSeeds m c (ix1 q) = nearTrue (truePts m c) (predPts m c) q := rfl
  rw [e2]
  exact (sqrt_at _ (ix1 q) _ (hred.trans hfold)).trans (sqrt_fold_tileMin (truePts m c) (predPts m c) q)

/-! ## The four results -/

theorem tail_v5 (c : Dev nD) : Pipeline.afterTail₀ cfgs (dats m) 0 (V0 m) [hostOps1] c main_v5 = kSeeds m c := by
  unfold Pipeline.afterTail₀
  show StableHlo.after hostOps1 _ (Proc.devRef .tc main_v5) = _
  after_results
  rw [arr3 m c]
  exact min_rows m c

theorem tail_v7 (c : Dev nD) : Pipeline.afterTail₀ cfgs (dats m) 0 (V0 m) [hostOps1] c main_v7 = meanOf (kMins m c) := by
  unfold Pipeline.afterTail₀
  show StableHlo.after hostOps1 _ (Proc.devRef .tc main_v7) = _
  after_results
  rw [arr2 m c]
  exact congrArg meanOf (flat_row m c)

theorem tail_v9 (c : Dev nD) : Pipeline.afterTail₀ cfgs (dats m) 0 (V0 m) [hostOps1] c main_v9 = meanOf (kSeeds m c) := by
  unfold Pipeline.afterTail₀
  show StableHlo.after hostOps1 _ (Proc.devRef .tc main_v9) = _
  after_results
  rw [arr3 m c]
  exact congrArg meanOf (min_rows m c)

theorem tail_v10 (c : Dev nD) :
    Pipeline.afterTail₀ cfgs (dats m) 0 (V0 m) [hostOps1] c main_v10 = addf (F := Ideal) (meanOf (kMins m c)) (meanOf (kSeeds m c)) := by
  unfold Pipeline.afterTail₀
  show StableHlo.after hostOps1 _ (Proc.devRef .tc main_v10) = _
  after_results
  rw [arr2 m c, arr3 m c]
  exact congrArg₂ (fun a b => addf (F := Ideal) (meanOf a) (meanOf b)) (flat_row m c) (min_rows m c)

/-! ## The run, read -/

/-- Every weakly fair execution of the program ends with the four results at these functions of the argument arrays and
    the arguments unchanged. -/
theorem run : θ_run defs (onTc (τ := τ) (main (F := Ideal))) ⟨m, fun _ => 0, ρ⟩ fun r => ∀ c : Dev nD,
      r.2.mem ((c.tc : Thread nD τ).loc main_v10) = addf (F := Ideal) (meanOf (kMins m c)) (meanOf (kSeeds m c))
      ∧ r.2.mem ((c.tc : Thread nD τ).loc main_v5) = kSeeds m c
      ∧ r.2.mem ((c.tc : Thread nD τ).loc main_v7) = meanOf (kMins m c)
      ∧ r.2.mem ((c.tc : Thread nD τ).loc main_v9) = meanOf (kSeeds m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_v10 m c),
     ((h c).2 main_v5 (Pipeline.mem_restRefs_of main_v5 (by decide) (by decide))).trans (tail_v5 m c),
     ((h c).2 main_v7 (Pipeline.mem_restRefs_of main_v7 (by decide) (by decide))).trans (tail_v7 m c),
     ((h c).2 main_v9 (Pipeline.mem_restRefs_of main_v9 (by decide) (by decide))).trans (tail_v9 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Dist

end
-- ==== Proof.RefDist.lean ====
/-
  The reference, read at the ideal values.

  The reference forms, for true point `i` and pred point `j`, the squared norm of each (its three squared coordinates
  summed from zero), adds them, subtracts twice the inner product, clamps at zero and takes the square root; then it
  takes, of this matrix of distances, the minimum along each row and along each column, both from `+∞`. When the
  entries of the two arrays are real numbers the clamped expanded form is the sum of squared coordinate differences,
  so the row minima are the least distances from the true points and the column minima those from the pred points.
-/
import proofs.«136097_j35192962023870_2_alg».proof.Proof.Gen.ReferenceIdeal.Read
import proofs.«136097_j35192962023870_2_alg».proof.Proof.Spec
import proofs.«136097_j35192962023870_2_alg».proof.Proof.LibMin
import Idealize.ShloMosaic.Lib.ValueLayout

set_option maxRecDepth 16384

noncomputable section

open Idealize.ShloMosaic Idealize.ShloMosaic.TcCoe Idealize.SL.Sem

namespace Cert.ReferenceIdeal.Dist

open Cert.ReferenceIdeal Cert.ReferenceIdeal.Gen Cert.ReferenceIdeal.Read Idealize.ShloMosaic.ValueIdx Cert.Nearest

variable (x0 x1 : S12288x3.Idx → EReal)

/-- An argument array as points: entry (point, coordinate). -/
def pts (x : S12288x3.Idx → EReal) : Fin 12288 → Fin 3 → EReal := fun i k => x (ix2 i k)

/-! ## The indices the reference's operations read, composed, are the plain ones -/

theorem e_true (i j : Fin 12288) (k : Fin 3) : idx_main_v1 (idx_main_v2 (idx_main_v6 (ix2 i j))) k = ix2 i k :=
  funext fun a => Fin.ext (by match a with | ⟨0, _⟩ => rfl | ⟨1, _⟩ => rfl)

theorem e_pred (i j : Fin 12288) (k : Fin 3) : idx_main_v4 (idx_main_v5 (idx_main_v7 (ix2 i j))) k = ix2 j k :=
  funext fun a => Fin.ext (by match a with | ⟨0, _⟩ => rfl | ⟨1, _⟩ => rfl)

theorem e_lhs (i j : Fin 12288) (k : Fin 3) : lidx_main_v10 (ix2 i j) k = ix2 i k :=
  funext fun a => Fin.ext (by match a with | ⟨0, _⟩ => rfl | ⟨1, _⟩ => rfl)

theorem e_rhs (i j : Fin 12288) (k : Fin 3) : idx_main_v9 (ridx_main_v10 (ix2 i j) k) = ix2 j k :=
  funext fun a => Fin.ext (by match a with | ⟨0, _⟩ => rfl | ⟨1, _⟩ => rfl)

/-! ## The matrix of distances at an entry -/

/-- Entry (true `i`, pred `j`): the root of the clamped expanded form. -/
theorem dist_apply (i j : Fin 12288) :
    val_main_v16 (F := Ideal) x0 x1 (ix2 i j)
      = Ideal.sqrt (sqx (x0 (ix2 i 0)) (x0 (ix2 i 1)) (x0 (ix2 i 2)) (x1 (ix2 j 0)) (x1 (ix2 j 1)) (x1 (ix2 j 2))) := by
  rw [val_main_v16_apply, val_main_v15_apply, val_main_v13_apply, val_main_v8_apply, val_main_v6_apply, val_main_v2_apply,
    val_main_v1_apply, val_main_v7_apply, val_main_v5_apply, val_main_v4_apply, val_main_v12_apply, val_main_v11_apply,
    val_main_v10_apply, val_main_v14_apply]
  simp only [Fin.sum_univ_three, val_main_v0_apply, val_main_v3_apply, val_main_v9_apply, val_main_cst_apply,
    val_main_cst_0_apply, val_main_cst_1_apply, val_main_cst_2_apply, e_true, e_pred, e_lhs, e_rhs, Ideal.mulf_def,
    Ideal.addf_def, Ideal.subf_def, Ideal.maximumf_def, Ideal.hostUnary_sqrt_def, Ideal.ofBits_def, ofBits_zero, ofBits_two]
  rfl

/-- With real entries it is the distance: the root of the sum of squared coordinate differences. -/
theorem dist_eq (h0 : ∀ i, ∃ r : ℝ, x0 i = (r : EReal)) (h1 : ∀ i, ∃ r : ℝ, x1 i = (r : EReal)) (i j : Fin 12288) :
    val_main_v16 (F := Ideal) x0 x1 (ix2 i j) = Ideal.sqrt (d2 (pts x0) (pts x1) i j) := by
  rw [dist_apply]
  obtain ⟨a0, ha0⟩ := h0 (ix2 i 0); obtain ⟨a1, ha1⟩ := h0 (ix2 i 1); obtain ⟨a2, ha2⟩ := h0 (ix2 i 2)
  obtain ⟨b0, hb0⟩ := h1 (ix2 j 0); obtain ⟨b1, hb1⟩ := h1 (ix2 j 1); obtain ⟨b2, hb2⟩ := h1 (ix2 j 2)
  unfold d2 pts
  rw [ha0, ha1, ha2, hb0, hb1, hb2, sqx_eq_sqd]

/-! ## The two minimum reductions -/

/-- The row minima: for each true point the least distance to a pred point. -/
theorem mins_eq (h0 : ∀ i, ∃ r : ℝ, x0 i = (r : EReal)) (h1 : ∀ i, ∃ r : ℝ, x1 i = (r : EReal)) :
    val_main_v17 (F := Ideal) x0 x1 = fun i => nearPred (pts x0) (pts x1) (i 0) := by
  funext i
  obtain ⟨p, rfl⟩ : ∃ p : Fin 12288, i = ix1 p := ⟨i 0, eq_ix1 i⟩
  unfold val_main_v17
  refine (MinRead.hostReduce_min_single _ _ reducesTo_S12288x12288_S12288_d1 (by decide) h_S_ (ix1 p)).trans ?_
  show Finset.fold min (Ideal.ofBits .f32 0x7F800000#32) _ _ = Finset.fold min ⊤ _ _
  rw [ofBits_inf]
  refine Finset.fold_congr fun k _ => ?_
  exact (congrArg (val_main_v16 (F := Ideal) x0 x1) (Cert.Attn.Layout.lift_row _ p k)).trans (dist_eq x0 x1 h0 h1 p _)

/-- The column minima: for each pred point the least distance to a true point. -/
theorem seeds_eq (h0 : ∀ i, ∃ r : ℝ, x0 i = (r : EReal)) (h1 : ∀ i, ∃ r : ℝ, x1 i = (r : EReal)) :
    val_main_v18 (F := Ideal) x0 x1 = fun j => nearTrue (pts x0) (pts x1) (j 0) := by
  funext j
  obtain ⟨q, rfl⟩ : ∃ q : Fin 12288, j = ix1 q := ⟨j 0, eq_ix1 j⟩
  unfold val_main_v18
  refine (MinRead.hostReduce_min_single _ _ reducesTo_S12288x12288_S12288_d0 (by decide) h_S_ (ix1 q)).trans ?_
  show Finset.fold min (Ideal.ofBits .f32 0x7F800000#32) _ _ = Finset.fold min ⊤ _ _
  rw [ofBits_inf]
  refine Finset.fold_congr fun k _ => ?_
  exact (congrArg (val_main_v16 (F := Ideal) x0 x1) (MinRead.lift_col _ q k)).trans (dist_eq x0 x1 h0 h1 _ q)

end Cert.ReferenceIdeal.Dist

end
-- ==== Proof.Finite.lean ====
/-
  The precondition, decoded: every entry of both argument arrays is a real number.

  The precondition takes the absolute value of each entry, compares it with `+∞` strictly, and conjoins all the
  comparisons (for each array, then the two arrays). An extended real whose absolute value is strictly below the top
  is neither infinity, hence a real number.
-/
import proofs.«136097_j35192962023870_2_alg».proof.Proof.Gen.Pre_finite_inputs
import proofs.«136097_j35192962023870_2_alg».proof.Proof.Spec
import Idealize.ShloMosaic.Lib.ReduceAll
import Idealize.ShloMosaic.Lib.ValueIdx
import Idealize.ShloMosaic.PureOps.Ideal.Laws

noncomputable section

open Idealize.ShloMosaic

namespace Cert.Pre_finite_inputs.Real

open Cert.Pre_finite_inputs Cert.Nearest

instance : Subsingleton S_.Idx := ⟨fun a b => funext fun d => d.elim0⟩

/-- An extended real whose absolute value compares strictly below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- The precondition holding of two arrays of extended reals makes every entry of both a real number. -/
theorem real_entries (a0 a1 : FVec Ideal S12288x3 .f32) (h : fn (F := Ideal) a0 a1 = fun _ => 1#1) :
    (∀ i, ∃ r : ℝ, a0 i = (r : EReal)) ∧ (∀ i, ∃ r : ℝ, a1 i = (r : EReal)) := by
  have h' := congrFun h ValueIdx.ix0
  dsimp only [fn] at h'
  obtain ⟨e0, e1⟩ := IntOp.andi_eq_one.1 h'
  exact ⟨fun i => real_of_abs_lt_inf _ (Host.reduce_andi_all _ _ _ _ _ e0 i),
    fun i => real_of_abs_lt_inf _ (Host.reduce_andi_all _ _ _ _ _ e1 i)⟩

end Cert.Pre_finite_inputs.Real

end
-- ==== Proof.lean ====
/-
  Nearest-neighbour distances in both directions between 12288 true points and 12288 pred points in three coordinates,
  their two means and the sum of the means: the tiled kernel against the plain reference, equal at the ideal values.

  The kernel forms each squared distance as the sum of three squared coordinate differences, takes its minima over
  tiles (along the pred tiles in a scratch row carried across the grid, along the true tiles in a second output the
  host then minimises) and takes square roots last. The reference expands the squared distance into norms and an inner
  product, clamps at zero, takes the square root of every entry and then the minima. With real entries — which is what
  the precondition says — the two squared distances are one number, never negative; and the square root, being monotone,
  may be taken before or after a minimum. The means and their sum are then the same operations of equal vectors.

  The frames are the generated ones (the reference's is its generated run with the results dropped); the idealization
  rewrote nothing, so that conjunct is trivial.
-/
import proofs.«136097_j35192962023870_2_alg».proof.Defs
import proofs.«136097_j35192962023870_2_alg».proof.Proof.Gen.Kernel
import proofs.«136097_j35192962023870_2_alg».proof.Proof.Gen.Kernel.Skeleton
import proofs.«136097_j35192962023870_2_alg».proof.Proof.Gen.Kernel.Launch
import proofs.«136097_j35192962023870_2_alg».proof.Proof.Gen.Kernel.Points
import proofs.«136097_j35192962023870_2_alg».proof.Proof.Gen.Kernel.Frame
import proofs.«136097_j35192962023870_2_alg».proof.Proof.Gen.KernelIdeal
import proofs.«136097_j35192962023870_2_alg».proof.Proof.Gen.KernelIdeal.Skeleton
import proofs.«136097_j35192962023870_2_alg».proof.Proof.Gen.KernelIdeal.Launch
import proofs.«136097_j35192962023870_2_alg».proof.Proof.Gen.KernelIdeal.Points
import proofs.«136097_j35192962023870_2_alg».proof.Proof.Gen.KernelIdeal.Frame
import proofs.«136097_j35192962023870_2_alg».proof.Proof.Gen.ReferenceIdeal
import proofs.«136097_j35192962023870_2_alg».proof.Proof.Gen.ReferenceIdeal.Run
import proofs.«136097_j35192962023870_2_alg».proof.Proof.Gen.ReferenceIdeal.Read
import proofs.«136097_j35192962023870_2_alg».proof.Proof.Gen.Pre_finite_inputs
import proofs.«136097_j35192962023870_2_alg».proof.Proof.Tail
import proofs.«136097_j35192962023870_2_alg».proof.Proof.RefDist
import proofs.«136097_j35192962023870_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

/-- The reference's two means and their sum are the kernel's, once its two minimum vectors are the kernel's. -/
theorem ref_results (x0 x1 : FVec Ideal Cert.ReferenceIdeal.S12288x3 .f32) (mins seeds : FVec Ideal Cert.KernelIdeal.S12288 .f32)
    (e17 : Cert.ReferenceIdeal.Read.val_main_v17 (F := Ideal) x0 x1 = mins)
    (e18 : Cert.ReferenceIdeal.Read.val_main_v18 (F := Ideal) x0 x1 = seeds) :
    Cert.ReferenceIdeal.Read.val_main_v23 (F := Ideal) x0 x1
        = addf (F := Ideal) (Cert.KernelIdeal.Dist.meanOf mins) (Cert.KernelIdeal.Dist.meanOf seeds)
      ∧ Cert.ReferenceIdeal.Read.val_main_v20 (F := Ideal) x0 x1 = Cert.KernelIdeal.Dist.meanOf mins
      ∧ Cert.ReferenceIdeal.Read.val_main_v22 (F := Ideal) x0 x1 = Cert.KernelIdeal.Dist.meanOf seeds := by
  subst e17 e18
  exact ⟨rfl, rfl, rfl⟩

theorem algebraic : Cert.algebraic_KernelIdeal_ReferenceIdeal := by
  intro m ρ m' ρ' hpre hagree
  refine ⟨fun c => addf (F := Ideal) (Cert.KernelIdeal.Dist.meanOf (Cert.KernelIdeal.Dist.kMins m c)) (Cert.KernelIdeal.Dist.meanOf (Cert.KernelIdeal.Dist.kSeeds m c)),
    fun c => Cert.KernelIdeal.Dist.kSeeds m c,
    fun c => Cert.KernelIdeal.Dist.meanOf (Cert.KernelIdeal.Dist.kMins m c),
    fun c => Cert.KernelIdeal.Dist.meanOf (Cert.KernelIdeal.Dist.kSeeds m c),
    Cert.KernelIdeal.Dist.run m ρ, ?_⟩
  refine (θ_run Cert.ReferenceIdeal.defs _ _).mono (fun _ h c => ?_) (Cert.ReferenceIdeal.Value.run (F := Ideal) m' ρ')
  obtain ⟨r23, r18, r20, r22, ra0, ra1⟩ := h c
  obtain ⟨hr0, hr1⟩ := Cert.Pre_finite_inputs.Real.real_entries _ _ (hpre c)
  have e17 : Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = Cert.KernelIdeal.Dist.kMins m c := Cert.ReferenceIdeal.Dist.mins_eq _ _ hr0 hr1
  have e18 : Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = Cert.KernelIdeal.Dist.kSeeds m c := Cert.ReferenceIdeal.Dist.seeds_eq _ _ hr0 hr1
  obtain ⟨q23, q20, q22⟩ := ref_results _ _ _ _ e17 e18
  rw [(hagree c).1, (hagree c).2] at r23 r18 r20 r22
  exact ⟨r23.trans ((Cert.ReferenceIdeal.Read.val_main_v23_eq _ _).trans q23),
    r18.trans ((Cert.ReferenceIdeal.Read.val_main_v18_eq _ _).trans e18),
    r20.trans ((Cert.ReferenceIdeal.Read.val_main_v20_eq _ _).trans q20),
    r22.trans ((Cert.ReferenceIdeal.Read.val_main_v22_eq _ _).trans q22), ra0, ra1⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
